-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x8x16 : Shape := ⟨3, ![131072, 8, 16]⟩
abbrev S131072x512 : Shape := ⟨2, ![131072, 512]⟩
abbrev S32 : Shape := ⟨1, ![32]⟩
abbrev S_ : Shape := ⟨0, ![]⟩

class Facts : Prop where
  bcast_S_S131072x8x16 : S_.BroadcastsInDim S131072x8x16 (![] : Fin 0 → Fin S131072x8x16.rank)
  reducesTo_S131072x8x16_S_d0_1_2 : S131072x8x16.ReducesTo [0, 1, 2] S_
  h_S_ : 0 < S_.numel
  bcast_S_S131072x512 : S_.BroadcastsInDim S131072x512 (![] : Fin 0 → Fin S131072x512.rank)
  reducesTo_S131072x512_S_d0_1 : S131072x512.ReducesTo [0, 1] S_

variable [Facts]

def fn {F : FTy → Type} [FloatOps F] (main_arg0 : FVec F S131072x8x16 .f32) (main_arg1 : FVec F S131072x512 .f32) (main_arg2 : FVec F S131072x512 .f32) (main_arg3 : IVec S32 32) : IVec S_ 1 :=
  let main_v0 : FVec F S131072x8x16 .f32 := Host.absf main_arg0
  let main_cst : FVec F S_ .f32 := constant S_ .f32 0x7F800000#32
  let main_v1 : FVec F S131072x8x16 .f32 := broadcastInDim S131072x8x16 ![] bcast_S_S131072x8x16 main_cst
  let main_v2 : IVec S131072x8x16 1 := cmpf .olt main_v0 main_v1
  let main_c : IVec S_ 1 := constantI S_ 1 1#1
  let main_v3 : IVec S_ 1 := (fun x v => Host.reduce IntOp.andi x v reducesTo_S131072x8x16_S_d0_1_2 h_S_) main_v2 main_c
  let main_v4 : FVec F S131072x512 .f32 := Host.absf main_arg1
  let main_cst_0 : FVec F S_ .f32 := constant S_ .f32 0x7F800000#32
  let main_v5 : FVec F S131072x512 .f32 := broadcastInDim S131072x512 ![] bcast_S_S131072x512 main_cst_0
  let main_v6 : IVec S131072x512 1 := cmpf .olt main_v4 main_v5
  let main_c_1 : IVec S_ 1 := constantI S_ 1 1#1
  let main_v7 : IVec S_ 1 := (fun x v => Host.reduce IntOp.andi x v reducesTo_S131072x512_S_d0_1 h_S_) main_v6 main_c_1
  let main_v8 : IVec S_ 1 := andi main_v3 main_v7
  let main_v9 : FVec F S131072x512 .f32 := Host.absf main_arg2
  let main_cst_2 : FVec F S_ .f32 := constant S_ .f32 0x7F800000#32
  let main_v10 : FVec F S131072x512 .f32 := broadcastInDim S131072x512 ![] bcast_S_S131072x512 main_cst_2
  let main_v11 : IVec S131072x512 1 := cmpf .olt main_v9 main_v10
  let main_c_3 : IVec S_ 1 := constantI S_ 1 1#1
  let main_v12 : IVec S_ 1 := (fun x v => Host.reduce IntOp.andi x v reducesTo_S131072x512_S_d0_1 h_S_) main_v11 main_c_3
  let main_v13 : IVec S_ 1 := andi main_v8 main_v12
  main_v13
-- ==== Kernel.lean ====
abbrev S131072x8x16 : Shape := ⟨3, ![131072, 8, 16]⟩
abbrev S131072x512 : Shape := ⟨2, ![131072, 512]⟩
abbrev S32 : Shape := ⟨1, ![32]⟩
abbrev S131072x1x1 : Shape := ⟨3, ![131072, 1, 1]⟩
abbrev S131072 : Shape := ⟨1, ![131072]⟩
abbrev S_ : Shape := ⟨0, ![]⟩
abbrev S131072x1 : Shape := ⟨2, ![131072, 1]⟩
abbrev S1 : Shape := ⟨1, ![1]⟩
abbrev S1x1 : Shape := ⟨2, ![1, 1]⟩
abbrev S2048x512 : Shape := ⟨2, ![2048, 512]⟩
abbrev S2048x1 : Shape := ⟨2, ![2048, 1]⟩
abbrev S1x2048x512 : Shape := ⟨3, ![1, 2048, 512]⟩
abbrev S1x1x1 : Shape := ⟨3, ![1, 1, 1]⟩

abbrev nBuf : Space → Nat
  | .hbm => 32
  | .vmem => 7
  | .smem => 0
  | _ => 0

abbrev bufTy : (tb : Table) → Fin (tcTables nBuf tb) → BufTy
  | .hbm, ⟨0, _⟩ => ⟨S131072x8x16, .f32⟩
  | .hbm, ⟨1, _⟩ => ⟨S131072x512, .f32⟩
  | .hbm, ⟨2, _⟩ => ⟨S131072x512, .f32⟩
  | .hbm, ⟨3, _⟩ => ⟨S32, .i32⟩
  | .hbm, ⟨4, _⟩ => ⟨S131072x1x1, .f32⟩
  | .hbm, ⟨5, _⟩ => ⟨S131072, .f32⟩
  | .hbm, ⟨6, _⟩ => ⟨S131072, .i32⟩
  | .hbm, ⟨7, _⟩ => ⟨S_, .i32⟩
  | .hbm, ⟨8, _⟩ => ⟨S131072, .i32⟩
  | .hbm, ⟨9, _⟩ => ⟨S131072, .i1⟩
  | .hbm, ⟨10, _⟩ => ⟨S_, .i32⟩
  | .hbm, ⟨11, _⟩ => ⟨S131072, .i32⟩
  | .hbm, ⟨12, _⟩ => ⟨S131072, .i32⟩
  | .hbm, ⟨13, _⟩ => ⟨S131072, .i32⟩
  | .hbm, ⟨14, _⟩ => ⟨S131072x1, .i32⟩
  | .hbm, ⟨15, _⟩ => ⟨S1, .i32⟩
  | .hbm, ⟨16, _⟩ => ⟨S_, .i32⟩
  | .hbm, ⟨17, _⟩ => ⟨S131072x1, .i32⟩
  | .hbm, ⟨18, _⟩ => ⟨S131072x1, .i1⟩
  | .hbm, ⟨19, _⟩ => ⟨S1x1, .i32⟩
  | .hbm, ⟨20, _⟩ => ⟨S131072x1, .i32⟩
  | .hbm, ⟨21, _⟩ => ⟨S131072x1, .i1⟩
  | .hbm, ⟨22, _⟩ => ⟨S131072x1, .i1⟩
  | .hbm, ⟨23, _⟩ => ⟨S_, .i1⟩
  | .hbm, ⟨24, _⟩ => ⟨S131072, .i1⟩
  | .hbm, ⟨25, _⟩ => ⟨S131072, .i32⟩
  | .hbm, ⟨26, _⟩ => ⟨S_, .i32⟩
  | .hbm, ⟨27, _⟩ => ⟨S131072, .i32⟩
  | .hbm, ⟨28, _⟩ => ⟨S131072, .i32⟩
  | .hbm, ⟨29, _⟩ => ⟨S131072x1, .i32⟩
  | .hbm, ⟨30, _⟩ => ⟨S1x1, .f32⟩
  | .hbm, ⟨31, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x1, .i32⟩
  | .local _ .vmem, ⟨5, _⟩ => ⟨S2048x1, .i32⟩
  | .local _ .vmem, ⟨6, _⟩ => ⟨S1x1, .f32⟩
  | _, _ => ⟨S131072x8x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_c_4 : Ref sig .tc := ⟨.hbm, 26, rfl⟩
abbrev main_call0_v14 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S131072x8x16_S131072x1x1_0_0_0 : S131072x8x16.Slices ![0, 0, 0] S131072x1x1
  shapeCasts_S131072x1x1_S131072 : S131072x1x1.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  h_S_ : 0 < S_.numel
  shapeCasts_S131072_S131072x1 : S131072.ShapeCasts S131072x1
  inb_S1x1_S1x1_0_0 : ∀ a, (![0, 0] : Fin 2 → Nat) a + S1x1.size a ≤ S1x1.size a
  h_S1x1 : 0 < S1x1.numel
  inb_S2048x512_S2048x512_0_0 : ∀ a, (![0, 0] : Fin 2 → Nat) a + S2048x512.size a ≤ S2048x512.size a
  h_S2048x512 : 0 < S2048x512.numel
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  iota_S2048x512_d1_w32 : S2048x512.Iotas .tc 32 [1]
  broadcasts_S2048x1_S2048x512 : S2048x1.Broadcasts S2048x512
  natLt_1_32 : 1 < 32
  shapeCasts_S1x1_S1x1 : S1x1.ShapeCasts S1x1
  shapeCasts_S2048x512_S1x2048x512 : S2048x512.ShapeCasts S1x2048x512
  reduces_S1x2048x512_S1 : S1x2048x512.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  gather_S32_S131072x1_S131072_n_0_n_n_0_1_1_wf : GatherDims.WF S32 S131072x1 S131072 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S131072x512.size a
  hwx0_0 : ∀ i : grid0.Coords, EltTy.bits .f32 = 32 ∨ (Rect.block (s := S131072x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S131072x512.size a
  hwx0_1 : ∀ i : grid0.Coords, EltTy.bits .f32 = 32 ∨ (Rect.block (s := S131072x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S131072x1.size a
  hwx0_2 : ∀ i : grid0.Coords, EltTy.bits .i32 = 32 ∨ (Rect.block (s := S131072x1) S2048x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S32_S131072x1_S131072_n_0_n_n_0_1_1 : GatherDims S32 S131072x1 S131072 where
  offsetDims := []
  collapsedSliceDims := [0]
  operandBatchingDims := []
  startIndicesBatchingDims := []
  startIndexMap := [0]
  indexVectorDim := 1
  sliceSizes := ![1]
  wf := gather_S32_S131072x1_S131072_n_0_n_n_0_1_1_wf

abbrev win0_0 : Pipeline.Window sig grid0 :=
  Pipeline.Window.ofSpec (Memref.whole main_arg1) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S131072x8x16 : Shape := ⟨3, ![131072, 8, 16]⟩
abbrev S131072x512 : Shape := ⟨2, ![131072, 512]⟩
abbrev S32 : Shape := ⟨1, ![32]⟩
abbrev S131072x1x1 : Shape := ⟨3, ![131072, 1, 1]⟩
abbrev S131072 : Shape := ⟨1, ![131072]⟩
abbrev S_ : Shape := ⟨0, ![]⟩
abbrev S131072x1 : Shape := ⟨2, ![131072, 1]⟩
abbrev S1 : Shape := ⟨1, ![1]⟩
abbrev S1x1 : Shape := ⟨2, ![1, 1]⟩
abbrev S512 : Shape := ⟨1, ![512]⟩
abbrev S1x512 : Shape := ⟨2, ![1, 512]⟩

abbrev nBuf : Space → Nat
  | .hbm => 43
  | .vmem => 0
  | .smem => 0
  | _ => 0

abbrev bufTy : (tb : Table) → Fin (tcTables nBuf tb) → BufTy
  | .hbm, ⟨0, _⟩ => ⟨S131072x8x16, .f32⟩
  | .hbm, ⟨1, _⟩ => ⟨S131072x512, .f32⟩
  | .hbm, ⟨2, _⟩ => ⟨S131072x512, .f32⟩
  | .hbm, ⟨3, _⟩ => ⟨S32, .i32⟩
  | .hbm, ⟨4, _⟩ => ⟨S131072x1x1, .f32⟩
  | .hbm, ⟨5, _⟩ => ⟨S131072, .f32⟩
  | .hbm, ⟨6, _⟩ => ⟨S131072, .i32⟩
  | .hbm, ⟨7, _⟩ => ⟨S_, .i32⟩
  | .hbm, ⟨8, _⟩ => ⟨S131072, .i32⟩
  | .hbm, ⟨9, _⟩ => ⟨S131072, .i1⟩
  | .hbm, ⟨10, _⟩ => ⟨S_, .i32⟩
  | .hbm, ⟨11, _⟩ => ⟨S131072, .i32⟩
  | .hbm, ⟨12, _⟩ => ⟨S131072, .i32⟩
  | .hbm, ⟨13, _⟩ => ⟨S131072, .i32⟩
  | .hbm, ⟨14, _⟩ => ⟨S131072x1, .i32⟩
  | .hbm, ⟨15, _⟩ => ⟨S1, .i32⟩
  | .hbm, ⟨16, _⟩ => ⟨S_, .i32⟩
  | .hbm, ⟨17, _⟩ => ⟨S131072x1, .i32⟩
  | .hbm, ⟨18, _⟩ => ⟨S131072x1, .i1⟩
  | .hbm, ⟨19, _⟩ => ⟨S1x1, .i32⟩
  | .hbm, ⟨20, _⟩ => ⟨S131072x1, .i32⟩
  | .hbm, ⟨21, _⟩ => ⟨S131072x1, .i1⟩
  | .hbm, ⟨22, _⟩ => ⟨S131072x1, .i1⟩
  | .hbm, ⟨23, _⟩ => ⟨S_, .i1⟩
  | .hbm, ⟨24, _⟩ => ⟨S131072, .i1⟩
  | .hbm, ⟨25, _⟩ => ⟨S131072, .i32⟩
  | .hbm, ⟨26, _⟩ => ⟨S_, .i32⟩
  | .hbm, ⟨27, _⟩ => ⟨S131072, .i32⟩
  | .hbm, ⟨28, _⟩ => ⟨S131072, .i32⟩
  | .hbm, ⟨29, _⟩ => ⟨S512, .i32⟩
  | .hbm, ⟨30, _⟩ => ⟨S1x512, .i32⟩
  | .hbm, ⟨31, _⟩ => ⟨S131072x1, .i32⟩
  | .hbm, ⟨32, _⟩ => ⟨S131072x512, .i32⟩
  | .hbm, ⟨33, _⟩ => ⟨S131072x512, .i32⟩
  | .hbm, ⟨34, _⟩ => ⟨S131072x512, .i1⟩
  | .hbm, ⟨35, _⟩ => ⟨S131072x512, .f32⟩
  | .hbm, ⟨36, _⟩ => ⟨S131072x512, .f32⟩
  | .hbm, ⟨37, _⟩ => ⟨S131072x512, .f32⟩
  | .hbm, ⟨38, _⟩ => ⟨S131072x512, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S131072x8x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_c_4 : Ref sig .tc := ⟨.hbm, 26, rfl⟩
abbrev main_call0_v14 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst : Ref sig .tc := ⟨.hbm, 39, rfl⟩
abbrev main_v14 : Ref sig .tc := ⟨.hbm, 40, rfl⟩
abbrev main_cst_0 : Ref sig .tc := ⟨.hbm, 41, rfl⟩
abbrev main_v15 : Ref sig .tc := ⟨.hbm, 42, rfl⟩

abbrev nD : Nat := 1
abbrev τ : Topo := Topo.v7x

variable {F : FTy → Type} [FloatOps F]

class Facts₀ : Prop where
  slices_S131072x8x16_S131072x1x1_0_0_0 : S131072x8x16.Slices ![0, 0, 0] S131072x1x1
  shapeCasts_S131072x1x1_S131072 : S131072x1x1.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  bcast_S_S131072x1 : S_.BroadcastsInDim S131072x1 (![] : Fin 0 → Fin S131072x1.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  reducesTo_S131072x1_S131072_d1 : S131072x1.ReducesTo [1] S131072
  h_S_ : 0 < S_.numel
  bcast_S512_S1x512_1 : S512.BroadcastsInDim S1x512 (![1] : Fin 1 → Fin S1x512.rank)
  bcast_S1x512_S131072x512_0_1 : S1x512.BroadcastsInDim S131072x512 (![0, 1] : Fin 2 → Fin S131072x512.rank)
  bcast_S131072x1_S131072x512_0_1 : S131072x1.BroadcastsInDim S131072x512 (![0, 1] : Fin 2 → Fin S131072x512.rank)
  reducesTo_S131072x512_S_d0_1 : S131072x512.ReducesTo [0, 1] S_
  gather_S32_S131072x1_S131072_n_0_n_n_0_1_1_wf : GatherDims.WF S32 S131072x1 S131072 [] [0] [] [0] [] 1 ![1]

variable [Facts₀]

def gather_S32_S131072x1_S131072_n_0_n_n_0_1_1 : GatherDims S32 S131072x1 S131072 where
  offsetDims := []
  collapsedSliceDims := [0]
  operandBatchingDims := []
  startIndicesBatchingDims := []
  startIndexMap := [0]
  indexVectorDim := 1
  sliceSizes := ![1]
  wf := gather_S32_S131072x1_S131072_n_0_n_n_0_1_1_wf

class Facts : Prop extends Facts₀ where

variable [Facts]
-- ==== Proof.KPieces.lean ====
/-
  What the kernel body leaves in the one-word accumulator at each kind of grid point, as values.

  The accumulator block (1 × 1) is carried from point to point. The first point stores zero, reads it back and adds
  the block's sum; a middle point adds its block's sum to what it finds; the last point adds, reads the total back and
  divides. Each is the body's covering store read back: the last store wins, and a load after a whole-buffer store
  reads that store's value.
-/
import proofs.«123745_j63926293233938_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces
open Cert.KernelIdeal Cert.KernelIdeal.Gen
variable {F : FTy → Type} [FloatOps F]

/-- The zero offsets of a whole-buffer access. -/
theorem hz : (![0, 0] : Fin 2 → Nat) = fun _ => 0 := funext fun a => by fin_cases a <;> rfl

/-- A middle grid point: the body adds the block's sum of kept squared differences to what the accumulator held. -/
theorem out_B (c : Dev nD) (i : grid0.Coords) (a1 : Memref sig .tc .vmem S2048x512 .f32) (h1 : a1.IsWhole) (a2 : Memref sig .tc .vmem S2048x512 .f32) (h2 : a2.IsWhole) (a3 : Memref sig .tc .vmem S2048x1 .i32) (h3 : a3.IsWhole) (a4 : Memref sig .tc .vmem S1x1 .f32) (h4 : a4.IsWhole) (hc0 : ¬cond0_0 i) (hc1 : ¬cond0_1 i)
    (x0 x1 : Vec F S2048x512 .f32) (x2 : Vec F S2048x1 .i32) (xo : Vec F S1x1 .f32) :
    out0_B_3 c i a1 h1 a2 h2 a3 h3 a4 h4 hc0 hc1 x0 x1 x2 xo = k0_pay2 x0 x1 x2 xo := by
  unfold out0_B_3
  rw [View.read_writes_eq_canon _ _ _ (cover0_B_3 c i a1 h1 a2 h2 a3 h3 a4 h4 hc0 hc1 x0 x1 x2 xo)]
  unfold kernelRun0_B
  dsimp only
  rw [View.canon_unit_zero hz]
  simp only [View.readAt_eq_ld, h1.read_unread, h2.read_unread, h3.read_unread, h4.read_unread,
    View.ld_unit_zero (S := S2048x512) hz, View.ld_unit_zero (S := S2048x1) hz, View.ld_unit_zero (S := S1x1) hz]

/-- The first grid point: the accumulator is reset to zero, read back, and the block's sum added to it. -/
theorem out_A (c : Dev nD) (i : grid0.Coords) (a1 : Memref sig .tc .vmem S2048x512 .f32) (h1 : a1.IsWhole) (a2 : Memref sig .tc .vmem S2048x512 .f32) (h2 : a2.IsWhole) (a3 : Memref sig .tc .vmem S2048x1 .i32) (h3 : a3.IsWhole) (a4 : Memref sig .tc .vmem S1x1 .f32) (h4 : a4.IsWhole) (hc0 : cond0_0 i) (hc1 : ¬cond0_1 i)
    (x0 x1 : Vec F S2048x512 .f32) (x2 : Vec F S2048x1 .i32) :
    out0_A_3 c i a1 h1 a2 h2 a3 h3 a4 h4 hc0 hc1 x0 x1 x2 = k0_pay2 x0 x1 x2 (k0_pay1 (F := F)) := by
  unfold out0_A_3
  rw [View.read_writes_eq_canon _ _ _ (cover0_A_3 c i a1 h1 a2 h2 a3 h3 a4 h4 hc0 hc1 x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S2048x512) hz, View.ld_unit_zero (S := S2048x1) hz]

/-- The last grid point: the block's sum is added, the total read back and divided by the number of positions. -/
theorem out_C (c : Dev nD) (i : grid0.Coords) (a1 : Memref sig .tc .vmem S2048x512 .f32) (h1 : a1.IsWhole) (a2 : Memref sig .tc .vmem S2048x512 .f32) (h2 : a2.IsWhole) (a3 : Memref sig .tc .vmem S2048x1 .i32) (h3 : a3.IsWhole) (a4 : Memref sig .tc .vmem S1x1 .f32) (h4 : a4.IsWhole) (hc0 : ¬cond0_0 i) (hc1 : cond0_1 i)
    (x0 x1 : Vec F S2048x512 .f32) (x2 : Vec F S2048x1 .i32) (xo : Vec F S1x1 .f32) :
    out0_C_3 c i a1 h1 a2 h2 a3 h3 a4 h4 hc0 hc1 x0 x1 x2 xo = k0_pay3 (k0_pay2 x0 x1 x2 xo) := by
  unfold out0_C_3
  rw [View.read_writes_eq_canon _ _ _ (cover0_C_3 c i a1 h1 a2 h2 a3 h3 a4 h4 hc0 hc1 x0 x1 x2 xo)]
  unfold kernelRun0_C
  dsimp only
  sl_unfold_words
  rw [View.canon_cons_unit_zero (S := S1x1) hz, View.readCov_unit_zero (S := S1x1) _ hz]
  simp only [View.readAt_eq_ld, h1.read_unread, h2.read_unread, h3.read_unread, h4.read_unread,
    View.ld_unit_zero (S := S2048x512) hz, View.ld_unit_zero (S := S2048x1) hz, View.ld_unit_zero (S := S1x1) hz]

end Cert.KernelIdeal.Pieces
end
-- ==== Proof.Spec.lean ====
/-
  The masked mean squared error both programs compute, as ONE function of the argument arrays, over literal shapes.

  Row r of the batch carries a device id in x[r, 0, 0]; the id (truncated to an integer, a negative one wrapped by 32)
  selects a per-device count of valid features from n_valid, or the least integer when the id is out of range:
  the row's threshold, `thr`. Feature q of row r is kept when q < thr r (signed); the kept squared differences
  ((y - y') · keep)² are summed over all 131072 × 512 positions and the total is divided by 2²⁶.

  The threshold chain is shared text of the two programs: it is named here once and never opened.
-/
import Idealize.ShloMosaic.PureOps
import Idealize.ShloMosaic.PureOps.Ideal
import Idealize.ShloMosaic.Lib.ValueIdx

noncomputable section

namespace Cert.MaskedMse

open Idealize.ShloMosaic Idealize.ShloMosaic.ValueIdx

abbrev SX : Shape := ⟨3, ![131072, 8, 16]⟩
abbrev SX1 : Shape := ⟨3, ![131072, 1, 1]⟩
abbrev SY : Shape := ⟨2, ![131072, 512]⟩
abbrev SN : Shape := ⟨1, ![32]⟩
abbrev SR : Shape := ⟨1, ![131072]⟩
abbrev SC : Shape := ⟨2, ![131072, 1]⟩
abbrev S0 : Shape := ⟨0, ![]⟩
abbrev S1 : Shape := ⟨1, ![1]⟩
abbrev S11 : Shape := ⟨2, ![1, 1]⟩

/-- The shape relations the threshold chain's operations ask for (each program states them as its own facts). -/
structure ThrFacts : Prop where
  slice : SX.Slices ![0, 0, 0] SX1
  flat : SX1.ShapeCasts SR
  splat : S0.BroadcastsInDim SR (![] : Fin 0 → Fin SR.rank)
  col : SR.BroadcastsInDim SC (![0] : Fin 1 → Fin SC.rank)
  splatC : S0.BroadcastsInDim SC (![] : Fin 0 → Fin SC.rank)
  one : S1.BroadcastsInDim S11 (![1] : Fin 1 → Fin S11.rank)
  down : S11.BroadcastsInDim SC (![0, 1] : Fin 2 → Fin SC.rank)
  red : SC.ReducesTo [1] SR
  pos : 0 < S0.numel

/-- The row thresholds: jnp.take(n_valid, int(x[:, 0, 0])) as jax lowers it — the index wrapped once by 32 when
    negative, the gathered count where the wrapped index lies in [0, 31], the least 32-bit integer elsewhere. -/
def thr (h : ThrFacts) (gd : GatherDims SN SC SR) (x : SX.Idx → EReal) (nv : SN.Idx → BitVec 32) : SR.Idx → BitVec 32 :=
  let d : IVec SR 32 := fptosi (F := Ideal) (φ := .f32) 32 (shapeCast SR (extractStridedSlice SX1 ![0, 0, 0] x h.slice) h.flat)
  let w : IVec SR 32 := select (cmpi .slt d (broadcastInDim SR ![] h.splat (constantI S0 32 0#32)))
    (addi d (broadcastInDim SR ![] h.splat (constantI S0 32 32#32))) d
  let k : IVec SC 32 := broadcastInDim SC ![0] h.col w
  let ok : IVec SC 1 := andi (cmpi .sge k (broadcastInDim SC ![] h.splatC (constantI S0 32 0#32)))
    (cmpi .sle k (broadcastInDim SC ![0, 1] h.down (broadcastInDim S11 ![1] h.one (constantI S1 32 31#32))))
  select (Host.reduce IntOp.andi ok (constantI S0 1 1#1) h.red h.pos) (Host.gather gd nv k)
    (broadcastInDim SR ![] h.splat (constantI S0 32 2147483648#32))

/-- Whether feature `q` is kept under threshold `th`: 1 when q < th as signed 32-bit integers, else 0. -/
def keep (th : BitVec 32) (q : ℕ) : EReal := (((IntOp.cmpi .slt (BitVec.ofNat 32 q) th).toNat : ℝ) : EReal)

/-- One position's contribution: the kept difference, squared. -/
def term (T : SR.Idx → BitVec 32) (y y' : SY.Idx → EReal) (r : Fin 131072) (q : Fin 512) : EReal :=
  (y (ix2 r q) - y' (ix2 r q)) * keep (T (ix1 r)) q.val * ((y (ix2 r q) - y' (ix2 r q)) * keep (T (ix1 r)) q.val)

/-- The mean over all 131072 × 512 positions: the total divided by 2²⁶ (the f32 word 0x4C800000). -/
def mse (T : SR.Idx → BitVec 32) (y y' : SY.Idx → EReal) : S0.Idx → EReal :=
  fun _ => Ideal.div (∑ r : Fin 131072, ∑ q : Fin 512, term T y y' r q) (Ideal.ofBits .f32 0x4C800000#32)

end Cert.MaskedMse

end
-- ==== Proof.KPayload.lean ====
/-
  The values the kernel body stores, read over the extended reals.

  The accumulating store writes  acc + Σ_p Σ_q ((y − y')·keep)²  over the 2048 × 512 block: the lanes' reduction of
  the block viewed 1 × 2048 × 512 is the sum over every entry, the entries re-indexed by the cast's bijection; an
  entry's flag is the comparison "column q is below row p's threshold", widened and converted, which is 0 or 1. The
  reset store writes 0; the final store divides the total by 2²⁶.
-/
import proofs.«123745_j63926293233938_1_alg».proof.Proof.Gen.KernelIdeal.Skeleton
import proofs.«123745_j63926293233938_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)

namespace Cert.KernelIdeal.Payload
open Cert.KernelIdeal Cert.KernelIdeal.Gen Cert.MaskedMse
open Idealize.ShloMosaic.ValueIdx

/-- A one-bit flag widened to 32 bits and read signed is the flag read unsigned. -/
theorem flag_toInt (b : BitVec 1) : (((b.setWidth 32).toInt : ℝ) : EReal) = ((b.toNat : ℝ) : EReal) := by
  rcases BitVec.eq_zero_or_eq_one b with h | h <;> subst h <;> rfl

/-- The sum of a 2048 × 512 block's entries, taken by the lanes' reduction after a cast to 1 × 2048 × 512. -/
theorem lane_total (v : FVec Ideal S2048x512 .f32) (hc : S2048x512.ShapeCasts S1x2048x512)
    (hr : S1x2048x512.Reduces [1, 2] S1) (hφ : FKind.Formats .f32) (hacc : (0x00000000#32 : BitVec 32) = FKind.add.neutral .f32 hφ)
    (j : S1.Idx) :
    multiReduction .add [1, 2] S1 (shapeCast S1x2048x512 v hc) 0x00000000#32 hr hφ hacc j
      = ∑ p : Fin 2048, ∑ q : Fin 512, v (ix2 p q) :=
  (Ideal.multiReduction_add_total _ _ hr (fun b => by fin_cases b; rfl) hφ hacc j).trans
    ((Equiv.sum_comp (Shape.reshapeEquiv hc) v).trans (sum_idx2 v))

/-- Entry (p, q) of a block's kept difference: the difference times the flag "q is below row p's threshold". -/
theorem kept_apply (x0 x1 : FVec Ideal S2048x512 .f32) (x2 : IVec S2048x1 32) (hI : S2048x512.Iotas .tc 32 [1])
    (hS : S2048x1.ShapeCasts S2048x1) (hB : S2048x1.Broadcasts S2048x512) (hlt : 1 < 32) (p : Fin 2048) (q : Fin 512) :
    mulf (subf x0 x1) (sitofp (F := Ideal) .f32 (extui 32 (cmpi .slt (iota .tc S2048x512 32 [1] hI)
        (broadcastTo S2048x512 (shapeCast S2048x1 x2 hS) hB)) hlt)) (ix2 p q)
      = (x0 (ix2 p q) - x1 (ix2 p q)) * keep (x2 (ix2 p (0 : Fin 1))) q.val := by
  show (x0 (ix2 p q) - x1 (ix2 p q)) * ((((IntOp.cmpi .slt (iota .tc S2048x512 32 [1] hI (ix2 p q))
      (broadcastTo S2048x512 (shapeCast S2048x1 x2 hS) hB (ix2 p q))).setWidth 32).toInt : ℝ) : EReal) = _
  rw [iota_single_apply, shapeCast_self, broadcastTo_apply x2 hB (ix2 p q) (ix2 p (0 : Fin 1))
    (fun a => by match a with | ⟨0, _⟩ => rfl | ⟨1, _⟩ => rfl), flag_toInt]
  rfl

/-- One entry of a block's kept squared difference. -/
def bterm (x0 x1 : S2048x512.Idx → EReal) (x2 : S2048x1.Idx → BitVec 32) (p : Fin 2048) (q : Fin 512) : EReal :=
  (x0 (ix2 p q) - x1 (ix2 p q)) * keep (x2 (ix2 p (0 : Fin 1))) q.val
    * ((x0 (ix2 p q) - x1 (ix2 p q)) * keep (x2 (ix2 p (0 : Fin 1))) q.val)

/-- Entry (p, q) of a block's kept squared difference, as the body computes it. -/
theorem sq_apply (x0 x1 : FVec Ideal S2048x512 .f32) (x2 : IVec S2048x1 32) (hI : S2048x512.Iotas .tc 32 [1])
    (hS : S2048x1.ShapeCasts S2048x1) (hB : S2048x1.Broadcasts S2048x512) (hlt : 1 < 32) (p : Fin 2048) (q : Fin 512) :
    mulf
      (mulf (subf x0 x1) (sitofp (F := Ideal) .f32 (extui 32 (cmpi .slt (iota .tc S2048x512 32 [1] hI)
        (broadcastTo S2048x512 (shapeCast S2048x1 x2 hS) hB)) hlt)))
      (mulf (subf x0 x1) (sitofp (F := Ideal) .f32 (extui 32 (cmpi .slt (iota .tc S2048x512 32 [1] hI)
        (broadcastTo S2048x512 (shapeCast S2048x1 x2 hS) hB)) hlt))) (ix2 p q)
      = bterm x0 x1 x2 p q :=
  (mulf_apply _ _ _).trans (congrArg₂ (· * ·) (kept_apply x0 x1 x2 hI hS hB hlt p q) (kept_apply x0 x1 x2 hI hS hB hlt p q))

/-- The accumulating store over a variable array of squares: what the accumulator held plus the array's total. -/
theorem acc_apply (xo : Vec Ideal S1x1 .f32) (w : FVec Ideal S2048x512 .f32) (hS1 : S1x1.ShapeCasts S1x1)
    (hc : S2048x512.ShapeCasts S1x2048x512) (hr : S1x2048x512.Reduces [1, 2] S1) (hφ : FKind.Formats .f32)
    (hacc : (0x00000000#32 : BitVec 32) = FKind.add.neutral .f32 hφ) (h3 : S1.ShapeCasts S1x1x1)
    (hpos : ∀ a, (![0, 0, 0] : Fin 3 → ℕ) a < S1x1x1.size a) (j : S1x1.Idx) :
    addf (shapeCast S1x1 xo hS1) (broadcast S1x1 (extractAt ![0, 0, 0]
        (shapeCast S1x1x1 (multiReduction .add [1, 2] S1 (shapeCast S1x2048x512 w hc) 0x00000000#32 hr hφ hacc) h3) hpos)) j
      = xo j + ∑ p : Fin 2048, ∑ q : Fin 512, w (ix2 p q) :=
  (addf_apply _ _ j).trans (congrArg₂ (· + ·) (congrFun (shapeCast_self xo hS1) j) (lane_total w hc hr hφ hacc _))

/-- The accumulating store's value: what the accumulator held plus the block's sum of kept squared differences. -/
theorem pay2_apply (x0 x1 : Vec Ideal S2048x512 .f32) (x2 : Vec Ideal S2048x1 .i32) (xo : Vec Ideal S1x1 .f32) (j : S1x1.Idx) :
    k0_pay2 (F := Ideal) x0 x1 x2 xo j = xo j + ∑ p : Fin 2048, ∑ q : Fin 512, bterm x0 x1 x2 p q := by
  unfold k0_pay2
  refine (acc_apply xo _ _ _ _ (.inl rfl) rfl _ _ j).trans (congrArg (xo j + ·) ?_)
  exact Finset.sum_congr rfl fun p _ => Finset.sum_congr rfl fun q _ => sq_apply x0 x1 x2 _ _ _ _ p q

/-- The reset store's value: zero. -/
theorem pay1_apply (j : S1x1.Idx) : k0_pay1 (F := Ideal) j = 0 := by
  show Ideal.ofBits .f32 0x00000000#32 = 0
  exact Ideal.ofBits_zero_f32

/-- The final store's value: the total divided by 2²⁶. -/
theorem pay3_apply (v : Vec Ideal S1x1 .f32) (j : S1x1.Idx) :
    k0_pay3 (F := Ideal) v j = Ideal.div (v j) (Ideal.ofBits .f32 0x4C800000#32) := by
  unfold k0_pay3
  exact (divf_apply _ _ j).trans (congrArg (Ideal.div · _) (congrFun (shapeCast_self v _) j))

end Cert.KernelIdeal.Payload
end
-- ==== Proof.KAcc.lean ====
/-
  The accumulator, point by point.

  After grid point n < 63 the one-word accumulator holds the sum of the sums of blocks 0 … n (the first point starts from
  the zero it has just stored, 0 + b₀ = b₀; each later point adds its block's sum to what the point before left); after
  the last point, 63, it holds the sum of all 64 blocks' sums divided by 2²⁶. By induction on the point.
-/
import proofs.«123745_j63926293233938_1_alg».proof.Proof.Gen.KernelIdeal.Frame
import proofs.«123745_j63926293233938_1_alg».proof.Proof.KPieces
import proofs.«123745_j63926293233938_1_alg».proof.Proof.KPayload

noncomputable section

open Idealize.ShloMosaic Idealize.ShloMosaic.TcCoe Idealize.SL.Sem
open Idealize.ShloMosaic.Pipeline (Dat)

namespace Cert.KernelIdeal.Acc
open Cert.KernelIdeal Cert.KernelIdeal.Gen Cert.KernelIdeal.Pieces Cert.KernelIdeal.Payload
open Idealize.ShloMosaic.ValueIdx

variable (m : (ℓ : Loc nD τ sig) → Buf (Elt Ideal) ℓ)

/-- Block s's sum of kept squared differences (zero past the grid). -/
def blockSum (c : Dev nD) (s : ℕ) : EReal :=
  if h : s < cfg0.N then
    ∑ p : Fin 2048, ∑ q : Fin 512, bterm (iblk m c 0 ⟨s, h⟩) (iblk m c 1 ⟨s, h⟩) (iblk m c 2 ⟨s, h⟩) p q
  else 0

theorem blockSum_of_lt (c : Dev nD) (s : ℕ) (h : s < cfg0.N) :
    blockSum m c s = ∑ p : Fin 2048, ∑ q : Fin 512, bterm (iblk m c 0 ⟨s, h⟩) (iblk m c 1 ⟨s, h⟩) (iblk m c 2 ⟨s, h⟩) p q :=
  dif_pos h

/-- Before the last point the accumulator holds the sum of the blocks' sums so far: by induction on the point. -/
theorem outsAt_eq (c : Dev nD) (j : S1x1.Idx) : ∀ (n : ℕ) (h : n < cfg0.N), n < 63 →
    outsAt0 m c n h j = ∑ s ∈ Finset.range (n + 1), blockSum m c s
  | 0, h, _ => by
    rw [Finset.sum_range_one, blockSum_of_lt m c 0 h]
    refine (congrFun ((outsAt0_A m c ⟨0, h⟩ rfl (by dsimp only; omega)).trans
      (out_A c _ _ _ _ _ _ _ _ _ _ _ (iblk m c 0 ⟨0, h⟩) (iblk m c 1 ⟨0, h⟩) (iblk m c 2 ⟨0, h⟩))) j).trans ?_
    refine (pay2_apply (iblk m c 0 ⟨0, h⟩) (iblk m c 1 ⟨0, h⟩) (iblk m c 2 ⟨0, h⟩) (k0_pay1 (F := Ideal)) j).trans ?_
    rw [pay1_apply, zero_add]
  | n + 1, h, h63 => by
    have h0 : ¬(⟨n + 1, h⟩ : Fin cfg0.N).val % 64 = 0 := by dsimp only; omega
    have h1 : ¬(⟨n + 1, h⟩ : Fin cfg0.N).val % 64 = 63 := by dsimp only; omega
    rw [Finset.sum_range_succ, blockSum_of_lt m c (n + 1) h, ← outsAt_eq c j n (Nat.lt_of_succ_lt h) (by omega)]
    refine (congrFun ((outsAt0_B m c ⟨n + 1, h⟩ h0 h1).trans
      (out_B c _ _ _ _ _ _ _ _ _ _ _ (iblk m c 0 ⟨n + 1, h⟩) (iblk m c 1 ⟨n + 1, h⟩) (iblk m c 2 ⟨n + 1, h⟩)
        (outsAt0 m c n (Nat.lt_of_succ_lt h)))) j).trans ?_
    exact pay2_apply (iblk m c 0 ⟨n + 1, h⟩) (iblk m c 1 ⟨n + 1, h⟩) (iblk m c 2 ⟨n + 1, h⟩) (outsAt0 m c n (Nat.lt_of_succ_lt h)) j

/-- After the last point the accumulator holds the sum of all 64 blocks' sums divided by 2²⁶. -/
theorem outsAt_last (c : Dev nD) (j : S1x1.Idx) (h : 63 < cfg0.N) :
    outsAt0 m c 63 h j = Ideal.div (∑ s ∈ Finset.range 64, blockSum m c s) (Ideal.ofBits .f32 0x4C800000#32) := by
  have h0 : ¬(⟨63, h⟩ : Fin cfg0.N).val % 64 = 0 := by dsimp only; omega
  have h1 : (⟨63, h⟩ : Fin cfg0.N).val % 64 = 63 := rfl
  rw [Finset.sum_range_succ, blockSum_of_lt m c 63 h, ← outsAt_eq m c j 62 (Nat.lt_of_succ_lt h) (by omega)]
  refine (congrFun ((outsAt0_C m c ⟨63, h⟩ h0 h1).trans
    (out_C c _ _ _ _ _ _ _ _ _ _ _ (iblk m c 0 ⟨63, h⟩) (iblk m c 1 ⟨63, h⟩) (iblk m c 2 ⟨63, h⟩)
      (outsAt0 m c 62 (Nat.lt_of_succ_lt h)))) j).trans ?_
  refine (pay3_apply _ j).trans ?_
  exact congrArg (Ideal.div · _) (pay2_apply (iblk m c 0 ⟨63, h⟩) (iblk m c 1 ⟨63, h⟩) (iblk m c 2 ⟨63, h⟩) (outsAt0 m c 62 (Nat.lt_of_succ_lt h)) j)

end Cert.KernelIdeal.Acc
end
-- ==== Proof.KBlocks.lean ====
/-
  Where a block's entry sits in its array.

  The three input windows tile their arrays by rows: block t of y and of y' is rows 2048 t … 2048 t + 2047 (all 512
  columns), block t of the threshold column the same rows of the column. An entry of a block is the array's entry at
  block index × block size + the coordinate inside the block.
-/
import proofs.«123745_j63926293233938_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Blocks
open Cert.KernelIdeal Cert.KernelIdeal.Gen
open Idealize.ShloMosaic.ValueIdx

variable {F : FTy → Type} [FloatOps F]
variable (m : (ℓ : Loc nD τ sig) → Buf (Elt F) ℓ)

/-- Block t of each row-tiled window starts at row t of the blocks, column block 0. -/
theorem idx_facts : ∀ t : Fin cfg0.N,
    (win0_0.index t 0 = t.val ∧ win0_0.index t 1 = 0) ∧ (win0_1.index t 0 = t.val ∧ win0_1.index t 1 = 0)
      ∧ (win0_2.index t 0 = t.val ∧ win0_2.index t 1 = 0) :=
  (by decide +kernel : ∀ t : Fin grid0.N,
    (win0_0.index t 0 = t.val ∧ win0_0.index t 1 = 0) ∧ (win0_1.index t 0 = t.val ∧ win0_1.index t 1 = 0)
      ∧ (win0_2.index t 0 = t.val ∧ win0_2.index t 1 = 0))

/-- Entry (p, q) of block t of y is entry (2048 t + p, q) of y. -/
theorem iblk0_apply (c : Dev nD) (t : Fin cfg0.N) (p : Fin 2048) (q : Fin 512) (r : Fin 131072)
    (hr : r.val = 2048 * t.val + p.val) :
    (iblk m c 0 t : Vec F S2048x512 .f32) (ix2 p q) = (V m c main_arg1 : S131072x512.Idx → Elt F .f32) (ix2 r q) := by
  unfold iblk
  rw [View.read_apply]
  show V m c main_arg1 _ = V m c main_arg1 _
  refine congrArg (V m c main_arg1) (funext fun a => Fin.ext ?_)
  match a with
  | ⟨0, _⟩ => show win0_0.index t 0 * 2048 + 1 * p.val = r.val; rw [(idx_facts t).1.1]; omega
  | ⟨1, _⟩ => show win0_0.index t 1 * 512 + 1 * q.val = q.val; rw [(idx_facts t).1.2]; omega

/-- Entry (p, q) of block t of y' is entry (2048 t + p, q) of y'. -/
theorem iblk1_apply (c : Dev nD) (t : Fin cfg0.N) (p : Fin 2048) (q : Fin 512) (r : Fin 131072)
    (hr : r.val = 2048 * t.val + p.val) :
    (iblk m c 1 t : Vec F S2048x512 .f32) (ix2 p q) = (V m c main_arg2 : S131072x512.Idx → Elt F .f32) (ix2 r q) := by
  unfold iblk
  rw [View.read_apply]
  show V m c main_arg2 _ = V m c main_arg2 _
  refine congrArg (V m c main_arg2) (funext fun a => Fin.ext ?_)
  match a with
  | ⟨0, _⟩ => show win0_1.index t 0 * 2048 + 1 * p.val = r.val; rw [(idx_facts t).2.1.1]; omega
  | ⟨1, _⟩ => show win0_1.index t 1 * 512 + 1 * q.val = q.val; rw [(idx_facts t).2.1.2]; omega

/-- Entry (p, 0) of block t of the threshold column is entry (2048 t + p, 0) of the column. -/
theorem iblk2_apply (c : Dev nD) (t : Fin cfg0.N) (p : Fin 2048) (r : Fin 131072)
    (hr : r.val = 2048 * t.val + p.val) :
    (iblk m c 2 t : Vec F S2048x1 .i32) (ix2 p (0 : Fin 1)) = (V m c main_v4 : S131072x1.Idx → Elt F .i32) (ix2 r (0 : Fin 1)) := by
  unfold iblk
  rw [View.read_apply]
  show V m c main_v4 _ = V m c main_v4 _
  refine congrArg (V m c main_v4) (funext fun a => Fin.ext ?_)
  match a with
  | ⟨0, _⟩ => show win0_2.index t 0 * 2048 + 1 * p.val = r.val; rw [(idx_facts t).2.2.1]; omega
  | ⟨1, _⟩ => show win0_2.index t 1 * 1 + 1 * (0 : Fin 1).val = (0 : Fin 1).val; rw [(idx_facts t).2.2.2]; rfl

end Cert.KernelIdeal.Blocks
end
-- ==== Proof.KThr.lean ====
/-
  What the kernel's program hands its pallas_call as the threshold column.

  Before the call the host slices the device ids out of x, converts them, gathers the per-device counts (the shared
  threshold chain) and reshapes the 131072 thresholds into a 131072 × 1 column. Read over any starting contents, the
  column's buffer holds the chain's value of the two arguments, cast to a column; the chain itself stays folded.
-/
import proofs.«123745_j63926293233938_1_alg».proof.Proof.Gen.KernelIdeal.Frame
import proofs.«123745_j63926293233938_1_alg».proof.Proof.Spec
import Idealize.ShloMosaic.Lib.StableHlo.Run

noncomputable section

open Idealize.ShloMosaic Idealize.ShloMosaic.TcCoe Idealize.SL.Sem
open Idealize.ShloMosaic.Pipeline (Dat)

namespace Cert.KernelIdeal.Thr
open Cert.KernelIdeal Cert.KernelIdeal.Gen Cert.MaskedMse
open Idealize.ShloMosaic.StableHlo

/-- The shape relations of the threshold chain, as this program states them. -/
theorem thrFacts : ThrFacts :=
  ⟨Facts₀.slices_S131072x8x16_S131072x1x1_0_0_0, Facts₀.shapeCasts_S131072x1x1_S131072, Facts₀.bcast_S_S131072,
    Facts₀.bcast_S131072_S131072x1_0, Facts₀.bcast_S_S131072x1, Facts₀.bcast_S1_S1x1_1, Facts₀.bcast_S1x1_S131072x1_0_1,
    Facts₀.reducesTo_S131072x1_S131072_d1, Facts₀.h_S_⟩

attribute [local irreducible] Host.reduce Host.gather in
set_option maxRecDepth 8192 in
/-- After the host operations before the kernel, the threshold column holds the row thresholds of the arguments. -/
theorem col_after (V : Valuation τ sig (Elt Ideal)) :
    after (List.flatten [hostOps0, hostOps0_1, hostOps0_2]) V (Proc.devRef .tc main_v4)
      = shapeCast S131072x1 (thr thrFacts gather_S32_S131072x1_S131072_n_0_n_n_0_1_1
          (V (Proc.devRef .tc main_arg0)) (V (Proc.devRef .tc main_arg3))) Facts₀.shapeCasts_S131072_S131072x1 := by
  simp only [hostOps0, hostOps0_1, hostOps0_2, List.flatten_cons, List.flatten_nil, List.append_nil, List.cons_append,
    List.nil_append]
  after_results_simp
  rfl

end Cert.KernelIdeal.Thr
end
-- ==== Proof.LibTileSum.lean ====
/-
  Regrouping a long sum into consecutive tiles.

  A sum over the first b·a naturals is the sum, over the a consecutive tiles of b positions each, of the sums inside
  the tiles: position b·s + k is position k of tile s. Only associativity and commutativity of the addition are used,
  so the statement holds in any additive commutative monoid — in particular over the extended reals, where no
  finiteness is needed.
-/
import Mathlib.Algebra.BigOperators.Fin
import Mathlib.Algebra.BigOperators.Intervals

open scoped BigOperators

namespace Cert.TileSum

variable {M : Type*} [AddCommMonoid M]

/-- The sums of `a` consecutive tiles of `b` positions add up to the sum over the first `b * a` positions. -/
theorem sum_tiles (f : ℕ → M) (b : ℕ) : ∀ a : ℕ,
    ∑ s ∈ Finset.range a, ∑ k : Fin b, f (b * s + k.val) = ∑ n ∈ Finset.range (b * a), f n
  | 0 => by simp
  | a + 1 => by
    rw [Finset.sum_range_succ, sum_tiles f b a, Nat.mul_succ, Finset.sum_range_add,
      Fin.sum_univ_eq_sum_range (fun k => f (b * a + k)) b]

/-- A sum over `Fin N` with `N = b * a`, of a function that a function `f` of the naturals extends, is the sum of
    the tiles' sums of `f`. -/
theorem sum_eq_tiles (N a b : ℕ) (hN : N = b * a) (g : Fin N → M) (f : ℕ → M) (hf : ∀ k : Fin N, f k.val = g k) :
    ∑ k : Fin N, g k = ∑ s ∈ Finset.range a, ∑ k : Fin b, f (b * s + k.val) := by
  rw [sum_tiles, ← hN, ← Fin.sum_univ_eq_sum_range]
  exact Finset.sum_congr rfl fun k _ => (hf k).symm

end Cert.TileSum
-- ==== Proof.Regroup.lean ====
/-
  The total over all rows as a sum over the 64 row tiles.

  Row r = 2048 s + p is position p of tile s. The sum over the 131072 rows of the rows' sums is the sum over the 64
  tiles of the sums inside the tiles: only associativity and commutativity of the addition of extended reals are used,
  so nothing needs to be finite.
-/
import proofs.«123745_j63926293233938_1_alg».proof.Proof.Spec
import proofs.«123745_j63926293233938_1_alg».proof.Proof.LibTileSum

noncomputable section

namespace Cert.MaskedMse

open Idealize.ShloMosaic Idealize.ShloMosaic.ValueIdx

/-- Row n's sum of kept squared differences (zero past the last row). -/
def rowSum (T : SR.Idx → BitVec 32) (y y' : SY.Idx → EReal) (n : ℕ) : EReal :=
  if h : n < 131072 then ∑ q : Fin 512, term T y y' ⟨n, h⟩ q else 0

theorem rowSum_of_lt (T : SR.Idx → BitVec 32) (y y' : SY.Idx → EReal) (n : ℕ) (h : n < 131072) :
    rowSum T y y' n = ∑ q : Fin 512, term T y y' ⟨n, h⟩ q := dif_pos h

/-- The total over the rows, tile by tile. -/
theorem total_eq_tiles (T : SR.Idx → BitVec 32) (y y' : SY.Idx → EReal) :
    ∑ r : Fin 131072, ∑ q : Fin 512, term T y y' r q
      = ∑ s ∈ Finset.range 64, ∑ p : Fin 2048, rowSum T y y' (2048 * s + p.val) :=
  Cert.TileSum.sum_eq_tiles 131072 64 2048 rfl (fun r => ∑ q : Fin 512, term T y y' r q) (rowSum T y y')
    (fun k => rowSum_of_lt T y y' k.val k.isLt)

end Cert.MaskedMse

end
-- ==== Proof.KSum.lean ====
/-
  The 64 blocks' sums are the total over all positions.

  Entry (p, q) of block t reads y, y' and the threshold column at row 2048 t + p, so it contributes what position
  (2048 t + p, q) of the whole arrays contributes; the column at row r holds the row's threshold (the reshape of the
  threshold vector to a column keeps the row-major position). A block's sum is therefore the sum of its 2048 rows' sums,
  and the 64 blocks' sums regroup into the sum over all 131072 rows.
-/
import proofs.«123745_j63926293233938_1_alg».proof.Proof.Gen.KernelIdeal.Frame
import proofs.«123745_j63926293233938_1_alg».proof.Proof.KAcc
import proofs.«123745_j63926293233938_1_alg».proof.Proof.KBlocks
import proofs.«123745_j63926293233938_1_alg».proof.Proof.KThr
import proofs.«123745_j63926293233938_1_alg».proof.Proof.Regroup
import Idealize.ShloMosaic.Lib.Pipeline.Value

noncomputable section

open Idealize.ShloMosaic Idealize.ShloMosaic.TcCoe Idealize.SL.Sem
open Idealize.ShloMosaic.Pipeline (Dat)

namespace Cert.KernelIdeal.KValue
open Cert.KernelIdeal Cert.KernelIdeal.Gen Cert.KernelIdeal.Acc Cert.KernelIdeal.Payload Cert.KernelIdeal.Blocks
open Cert.KernelIdeal.Thr Cert.MaskedMse
open Idealize.ShloMosaic.ValueIdx

variable (m : (ℓ : Loc nD τ sig) → Buf (Elt Ideal) ℓ) (ρ : Dev nD → PrngReg)

/-- The row thresholds of core c's arguments. -/
abbrev T (c : Dev nD) : SR.Idx → BitVec 32 :=
  thr thrFacts gather_S32_S131072x1_S131072_n_0_n_n_0_1_1 (m ((c : Thread nD τ).loc main_arg0)) (m ((c : Thread nD τ).loc main_arg3))

/-- A block entry's kept squared difference, from the three block entries it reads. -/
theorem bterm_congr {x0 x1 : S2048x512.Idx → EReal} {x2 : S2048x1.Idx → BitVec 32} {p : Fin 2048} {q : Fin 512}
    {a b : EReal} {th : BitVec 32} (h0 : x0 (ix2 p q) = a) (h1 : x1 (ix2 p q) = b) (h2 : x2 (ix2 p (0 : Fin 1)) = th) :
    bterm x0 x1 x2 p q = (a - b) * keep th q.val * ((a - b) * keep th q.val) := by
  unfold bterm; rw [h0, h1, h2]

/-- The threshold column, as the kernel finds it, at row r: the row's threshold. -/
theorem col_apply (c : Dev nD) (r : Fin 131072) :
    (V m c main_v4 : S131072x1.Idx → BitVec 32) (ix2 r (0 : Fin 1)) = T m c (ix1 r) := by
  have e : (V m c main_v4 : S131072x1.Idx → BitVec 32)
      = shapeCast S131072x1 (T m c) Facts₀.shapeCasts_S131072_S131072x1 := col_after (fun b => m (c, b))
  rw [e]
  exact shapeCast_apply (T m c) _ (ix2 r (0 : Fin 1)) (ix1 r) (by
    rw [Shape.rowMajor_val_one, Shape.rowMajor_val_two]; show r.val = r.val * 1 + 0; omega)

/-- Entry (p, q) of block t contributes what entry (2048 t + p, q) of the whole arrays contributes. -/
theorem bterm_eq_term (c : Dev nD) (t : Fin cfg0.N) (p : Fin 2048) (q : Fin 512) (r : Fin 131072)
    (hr : r.val = 2048 * t.val + p.val) :
    bterm (iblk m c 0 t) (iblk m c 1 t) (iblk m c 2 t) p q
      = term (T m c) (m ((c : Thread nD τ).loc main_arg1)) (m ((c : Thread nD τ).loc main_arg2)) r q := by
  refine (bterm_congr (iblk0_apply m c t p q r hr) (iblk1_apply m c t p q r hr) (iblk2_apply m c t p r hr)).trans ?_
  rw [col_apply m c r, V_main_arg1 m c, V_main_arg2 m c]
  rfl

/-- A block's sum is the sum of its 2048 rows' sums. -/
theorem blockSum_eq (c : Dev nD) (s : ℕ) (hs : s < 64) :
    blockSum m c s = ∑ p : Fin 2048, rowSum (T m c) (m ((c : Thread nD τ).loc main_arg1)) (m ((c : Thread nD τ).loc main_arg2)) (2048 * s + p.val) := by
  have h : s < cfg0.N := lt_of_lt_of_eq hs (show cfg0.N = 64 from N_0).symm
  rw [blockSum_of_lt m c s h]
  refine Finset.sum_congr rfl fun p _ => ?_
  have hp : 2048 * s + p.val < 131072 := by have := p.isLt; omega
  rw [rowSum_of_lt _ _ _ _ hp]
  exact Finset.sum_congr rfl fun q _ => bterm_eq_term m c ⟨s, h⟩ p q ⟨2048 * s + p.val, hp⟩ rfl

/-- The 64 blocks' sums add up to the total over all positions. -/
theorem blocks_total (c : Dev nD) :
    ∑ s ∈ Finset.range 64, blockSum m c s
      = ∑ r : Fin 131072, ∑ q : Fin 512, term (T m c) (m ((c : Thread nD τ).loc main_arg1)) (m ((c : Thread nD τ).loc main_arg2)) r q := by
  rw [total_eq_tiles]
  exact Finset.sum_congr rfl fun s hs => blockSum_eq m c s (Finset.mem_range.mp hs)

end Cert.KernelIdeal.KValue
end
-- ==== Proof.KRun.lean ====
/-
  From the accumulator to the program's result.

  The output window's one block is the whole 1 × 1 result array and is written back once, after the last grid point,
  when the accumulator holds the mean; so the array ends holding the mean. The host's reshape after the call reads it
  into the scalar result.
-/
import proofs.«123745_j63926293233938_1_alg».proof.Proof.Gen.KernelIdeal.Frame
import proofs.«123745_j63926293233938_1_alg».proof.Proof.KAcc
import Idealize.ShloMosaic.Lib.Pipeline.Value
import Idealize.ShloMosaic.Lib.StableHlo.Run

noncomputable section

open Idealize.ShloMosaic Idealize.ShloMosaic.TcCoe Idealize.SL.Sem
open Idealize.ShloMosaic.Pipeline (Dat)

namespace Cert.KernelIdeal.KRun
open Cert.KernelIdeal Cert.KernelIdeal.Gen Cert.KernelIdeal.Acc Cert.MaskedMse
open Idealize.ShloMosaic.ValueIdx Idealize.ShloMosaic.StableHlo

variable (m : (ℓ : Loc nD τ sig) → Buf (Elt Ideal) ℓ) (ρ : Dev nD → PrngReg)

/-- The mean the kernel leaves: the 64 blocks' sums, added, divided by 2²⁶. -/
def mean (c : Dev nD) : EReal :=
  Ideal.div (∑ s ∈ Finset.range 64, blockSum m c s) (Ideal.ofBits .f32 0x4C800000#32)

/-- As contents of the 1 × 1 result array. -/
abbrev result (c : Dev nD) : Buf (Elt Ideal) ((c : Thread nD τ).loc main_v5) := fun _ => mean m c

theorem h63 : 63 < cfg0.N := by rw [show cfg0.N = 64 from N_0]; decide
/-- The last grid point. -/
abbrev tLast : Fin cfg0.N := ⟨63, h63⟩

theorem outsAt_last_fun (c : Dev nD) : outsAt0 m c 63 h63 = result m c :=
  funext fun j => outsAt_last m c j h63

/-- The one write-back, at the last point, writes the mean: the window's one block is the whole 1 × 1 array. -/
theorem flushed_eq (c : Dev nD) (t : Fin cfg0.N) (hf : (cfg0.win 3).flush t = true) :
    (dats m 0 c).flushed 3 t = ((cfg0.win 3).blk t).view.read (Elt Ideal) (result m c) := by
  have hN : cfg0.N = 64 := N_0
  have h3 : t.val = 63 := by have := (flush0_3 t).mp hf; have := t.isLt; omega
  obtain rfl : t = tLast := Fin.ext h3
  show (cfg0.win 3).cut (grid0.coords tLast) ((dats m 0 c).after 3 tLast) = _
  rw [after0_3]
  show (cfg0.win 3).cut (grid0.coords tLast) (outsAt0 m c 63 h63) = _
  rw [outsAt_last_fun]
  have hz' : (fun a => win0_3.index tLast a * main_v5.ty.shape.size a) = fun _ => 0 := funext fun a => by fin_cases a <;> decide
  exact (Memref.read_access_unit_zero (Elt Ideal) main_v5 hz' (fun a => by rw [congrFun hz' a]; simp) (result m c)).symm

/-- So the result array ends holding the mean. -/
theorem final_o (c : Dev nD) : (dats m 0 c).arrAt 3 cfg0.N = result m c :=
  (dats m 0 c).arrAt_eq_of_cover 3 (result m c) (flushed_eq m c) fun i =>
    ⟨tLast, (flush0_3 tLast).mpr rfl, by
      show i ∈ ((View.whole main_v5).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The host's reshape after the call reads the mean out of the 1 × 1 array into the scalar result. -/
theorem tail_eq (c : Dev nD) :
    Pipeline.afterTail₀ cfgs (dats m) 0 (V0 m) [hostOps1] c main_v6 = fun _ => mean m c := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5)
      = result m c := (Pipeline.withArrays_arr spec0 launch0.win.arr_inj c _ _ 3).trans (final_o m c)
  rw [e]
  rfl

end Cert.KernelIdeal.KRun
end
-- ==== Proof.KValue.lean ====
/-
  The kernel's program, read: every weakly fair execution ends with the scalar result at the masked mean squared error
  of the arguments and the arguments unchanged.

  The generated frame run names each array after the call; the result array holds the mean of the 64 blocks' sums, the
  host's reshape reads it out, and the blocks' sums are the total over all positions. The arguments are read off the
  same run: a staged input keeps its entry contents, an array no window stages is left as the host operations leave it.
-/
import proofs.«123745_j63926293233938_1_alg».proof.Proof.Gen.KernelIdeal.Frame
import proofs.«123745_j63926293233938_1_alg».proof.Proof.KSum
import proofs.«123745_j63926293233938_1_alg».proof.Proof.KRun

noncomputable section

open Idealize.ShloMosaic Idealize.ShloMosaic.TcCoe Idealize.SL.Sem
open Idealize.ShloMosaic.Pipeline (Dat)

namespace Cert.KernelIdeal.KValue
open Cert.KernelIdeal Cert.KernelIdeal.Gen Cert.KernelIdeal.Acc Cert.KernelIdeal.KRun Cert.MaskedMse
open Idealize.ShloMosaic.ValueIdx

variable (m : (ℓ : Loc nD τ sig) → Buf (Elt Ideal) ℓ) (ρ : Dev nD → PrngReg)

/-- The mean the kernel leaves is the masked mean squared error of the arguments. -/
theorem mean_eq (c : Dev nD) :
    (fun _ => mean m c : S0.Idx → EReal)
      = mse (T m c) (m ((c : Thread nD τ).loc main_arg1)) (m ((c : Thread nD τ).loc main_arg2)) := by
  funext _
  unfold mean mse
  rw [blocks_total m c]

/-- The kernel's run, read: the scalar result at the masked mean squared error of the arguments, the arguments unchanged. -/
theorem run : θ_run defs (onTc (τ := τ) (main (F := Ideal))) ⟨m, fun _ => 0, ρ⟩ (fun r => ∀ c : Dev nD,
      r.2.mem ((c.tc : Thread nD τ).loc main_v6)
        = mse (T m c) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v6 (Pipeline.mem_restRefs_of main_v6 (by decide) (by decide))).trans ((tail_eq m c).trans (mean_eq m c)),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c)⟩)
    (run_main m ρ)

end Cert.KernelIdeal.KValue
end
-- ==== Proof.RefRun.lean ====
/-
  The reference program's @main as one straight line of its forty-two operations, and its run.

  @main calls the outlined function @_take, which itself calls @_where; a call means its callee's body on the
  operands, so the line is @main's own three operations before the call, @_take's twenty-two (the select of
  @_where in its place, the seventh) over the buffers of that call, and @main's seventeen after it. Every weakly
  fair execution then terminates with each buffer at the fold of the operations' results over the launch contents.
-/
import proofs.«123745_j63926293233938_1_alg».proof.Proof.Gen.ReferenceIdeal
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo

variable {F : FTy → Type} [FloatOps F] [Cert.ReferenceIdeal.Facts]
open Facts₀

/-- The row-threshold stretch: @main's slice, reshape and conversion to integers, then @_take's twenty-two
    operations over the buffers of its call (the wrap of a negative index by 32 through @_where's select, the
    range test, the gather, the select against the least integer). Twenty-five operations, ending in `main_v3`. -/
abbrev opsThr : List (HloOp τ sig (Elt F)) :=
  [ unary main_arg0 main_v0 ((extractStridedSlice S131072x1x1 ![0, 0, 0] · slices_S131072x8x16_S131072x1x1_0_0_0) : (⟨S131072x8x16, .f32⟩ : BufTy).Contents (Elt F) → (⟨S131072x1x1, .f32⟩ : BufTy).Contents (Elt F)),
    reshape main_v0 main_v1 rfl shapeCasts_S131072x1x1_S131072,
    unary main_v1 main_v2 (fptosi 32 : (⟨S131072, .f32⟩ : BufTy).Contents (Elt F) → (⟨S131072, .i32⟩ : BufTy).Contents (Elt F)),
    TRef.nullary (.of main_call0_c : TRef sig ⟨S_, .i32⟩) (constantI S_ 32 0#32),
    TRef.unary (.of main_call0_c : TRef sig ⟨S_, .i32⟩) (.of main_call0_v0 : TRef sig ⟨S131072, .i32⟩) (broadcastInDim S131072 ![] bcast_S_S131072),
    TRef.binary (.of main_v2 : TRef sig ⟨S131072, .i32⟩) (.of main_call0_v0 : TRef sig ⟨S131072, .i32⟩) (.of main_call0_v1 : TRef sig ⟨S131072, .i1⟩) (cmpi .slt),
    TRef.nullary (.of main_call0_c_0 : TRef sig ⟨S_, .i32⟩) (constantI S_ 32 32#32),
    TRef.unary (.of main_call0_c_0 : TRef sig ⟨S_, .i32⟩) (.of main_call0_v2 : TRef sig ⟨S131072, .i32⟩) (broadcastInDim S131072 ![] bcast_S_S131072),
    TRef.binary (.of main_v2 : TRef sig ⟨S131072, .i32⟩) (.of main_call0_v2 : TRef sig ⟨S131072, .i32⟩) (.of main_call0_v3 : TRef sig ⟨S131072, .i32⟩) addi,
    TRef.ternary (.of main_call0_v1 : TRef sig ⟨S131072, .i1⟩) (.of main_call0_v3 : TRef sig ⟨S131072, .i32⟩) (.of main_v2 : TRef sig ⟨S131072, .i32⟩) (.of main_call0_v4 : TRef sig ⟨S131072, .i32⟩) select,
    TRef.unary main_call0_call0.v0 (.of main_call0_v5 : TRef sig ⟨S131072x1, .i32⟩) (broadcastInDim S131072x1 ![0] bcast_S131072_S131072x1_0),
    TRef.nullary (.of main_call0_c_1 : TRef sig ⟨S1, .i32⟩) (constantI S1 32 31#32),
    TRef.nullary (.of main_call0_c_2 : TRef sig ⟨S_, .i32⟩) (constantI S_ 32 0#32),
    TRef.unary (.of main_call0_c_2 : TRef sig ⟨S_, .i32⟩) (.of main_call0_v6 : TRef sig ⟨S131072x1, .i32⟩) (broadcastInDim S131072x1 ![] bcast_S_S131072x1),
    TRef.binary (.of main_call0_v5 : TRef sig ⟨S131072x1, .i32⟩) (.of main_call0_v6 : TRef sig ⟨S131072x1, .i32⟩) (.of main_call0_v7 : TRef sig ⟨S131072x1, .i1⟩) (cmpi .sge),
    TRef.unary (.of main_call0_c_1 : TRef sig ⟨S1, .i32⟩) (.of main_call0_v8 : TRef sig ⟨S1x1, .i32⟩) (broadcastInDim S1x1 ![1] bcast_S1_S1x1_1),
    TRef.unary (.of main_call0_v8 : TRef sig ⟨S1x1, .i32⟩) (.of main_call0_v9 : TRef sig ⟨S131072x1, .i32⟩) (broadcastInDim S131072x1 ![0, 1] bcast_S1x1_S131072x1_0_1),
    TRef.binary (.of main_call0_v5 : TRef sig ⟨S131072x1, .i32⟩) (.of main_call0_v9 : TRef sig ⟨S131072x1, .i32⟩) (.of main_call0_v10 : TRef sig ⟨S131072x1, .i1⟩) (cmpi .sle),
    TRef.binary (.of main_call0_v7 : TRef sig ⟨S131072x1, .i1⟩) (.of main_call0_v10 : TRef sig ⟨S131072x1, .i1⟩) (.of main_call0_v11 : TRef sig ⟨S131072x1, .i1⟩) andi,
    TRef.nullary (.of main_call0_c_3 : TRef sig ⟨S_, .i1⟩) (constantI S_ 1 1#1),
    TRef.binary (.of main_call0_v11 : TRef sig ⟨S131072x1, .i1⟩) (.of main_call0_c_3 : TRef sig ⟨S_, .i1⟩) (.of main_call0_v12 : TRef sig ⟨S131072, .i1⟩) (fun x v => Host.reduce IntOp.andi x v reducesTo_S131072x1_S131072_d1 h_S_),
    TRef.binary (.of main_arg3 : TRef sig ⟨S32, .i32⟩) (.of main_call0_v5 : TRef sig ⟨S131072x1, .i32⟩) (.of main_call0_v13 : TRef sig ⟨S131072, .i32⟩) (fun x i => Host.gather gather_S32_S131072x1_S131072_n_0_n_n_0_1_1 x i),
    TRef.nullary (.of main_call0_c_4 : TRef sig ⟨S_, .i32⟩) (constantI S_ 32 2147483648#32),
    TRef.unary (.of main_call0_c_4 : TRef sig ⟨S_, .i32⟩) (.of main_call0_v14 : TRef sig ⟨S131072, .i32⟩) (broadcastInDim S131072 ![] bcast_S_S131072),
    TRef.ternary (.of main_call0_v12 : TRef sig ⟨S131072, .i1⟩) (.of main_call0_v13 : TRef sig ⟨S131072, .i32⟩) (.of main_call0_v14 : TRef sig ⟨S131072, .i32⟩) (.of main_v3 : TRef sig ⟨S131072, .i32⟩) select ]

/-- The masked mean stretch: the feature iota and the thresholds broadcast to the 131072 × 512 grid, their signed
    comparison as a float, the difference times that mask, squared, summed over every position from zero, and the
    total divided by 2²⁶. Seventeen operations, from `main_v3`, `main_arg1`, `main_arg2` to `main_v15`. -/
abbrev opsRest : List (HloOp τ sig (Elt F)) :=
  [ nullary main_v4 (iotaInDim S512 32 0),
    unary main_v4 main_v5 (broadcastInDim S1x512 ![1] bcast_S512_S1x512_1 : (⟨S512, .i32⟩ : BufTy).Contents (Elt F) → (⟨S1x512, .i32⟩ : BufTy).Contents (Elt F)),
    unary main_v3 main_v6 (broadcastInDim S131072x1 ![0] bcast_S131072_S131072x1_0 : (⟨S131072, .i32⟩ : BufTy).Contents (Elt F) → (⟨S131072x1, .i32⟩ : BufTy).Contents (Elt F)),
    unary main_v5 main_v7 (broadcastInDim S131072x512 ![0, 1] bcast_S1x512_S131072x512_0_1 : (⟨S1x512, .i32⟩ : BufTy).Contents (Elt F) → (⟨S131072x512, .i32⟩ : BufTy).Contents (Elt F)),
    unary main_v6 main_v8 (broadcastInDim S131072x512 ![0, 1] bcast_S131072x1_S131072x512_0_1 : (⟨S131072x1, .i32⟩ : BufTy).Contents (Elt F) → (⟨S131072x512, .i32⟩ : BufTy).Contents (Elt F)),
    binary main_v7 main_v8 main_v9 (cmpi .slt : (⟨S131072x512, .i32⟩ : BufTy).Contents (Elt F) → (⟨S131072x512, .i32⟩ : BufTy).Contents (Elt F) → (⟨S131072x512, .i1⟩ : BufTy).Contents (Elt F)),
    unary main_v9 main_v10 (uitofp .f32 : (⟨S131072x512, .i1⟩ : BufTy).Contents (Elt F) → (⟨S131072x512, .f32⟩ : BufTy).Contents (Elt F)),
    binary main_arg1 main_arg2 main_v11 (subf : (⟨S131072x512, .f32⟩ : BufTy).Contents (Elt F) → (⟨S131072x512, .f32⟩ : BufTy).Contents (Elt F) → (⟨S131072x512, .f32⟩ : BufTy).Contents (Elt F)),
    binary main_v11 main_v10 main_v12 (mulf : (⟨S131072x512, .f32⟩ : BufTy).Contents (Elt F) → (⟨S131072x512, .f32⟩ : BufTy).Contents (Elt F) → (⟨S131072x512, .f32⟩ : BufTy).Contents (Elt F)),
    binary main_v12 main_v12 main_v13 (mulf : (⟨S131072x512, .f32⟩ : BufTy).Contents (Elt F) → (⟨S131072x512, .f32⟩ : BufTy).Contents (Elt F) → (⟨S131072x512, .f32⟩ : BufTy).Contents (Elt F)),
    nullary main_cst (constant S_ .f32 0x00000000#32),
    binary main_v13 main_cst main_v14 ((fun x v => Host.reduceAdd x v reducesTo_S131072x512_S_d0_1 h_S_) : (⟨S131072x512, .f32⟩ : BufTy).Contents (Elt F) → (⟨S_, .f32⟩ : BufTy).Contents (Elt F) → (⟨S_, .f32⟩ : BufTy).Contents (Elt F)),
    nullary main_cst_0 (constant S_ .f32 0x4C800000#32),
    binary main_v14 main_cst_0 main_v15 (Host.divf : (⟨S_, .f32⟩ : BufTy).Contents (Elt F) → (⟨S_, .f32⟩ : BufTy).Contents (Elt F) → (⟨S_, .f32⟩ : BufTy).Contents (Elt F)) ]

/-- @main's forty-two operations, in order. -/
abbrev ops : List (HloOp τ sig (Elt F)) := opsThr ++ opsRest

-- forty-two binds re-associated: the rewrite under the chain recurses once per statement
set_option maxRecDepth 1024 in
/-- @main is that straight line: the two functions' definitions unfolded at their calls and the records at their
    fields, both sides are one chain of single operations once sequencing is reassociated. -/
theorem main_eq (c : Dev nD) : main (F := F) c = seq ops := by
  simp only [main, fn_take.body, fn_where.body, seq, bind_assoc, pure_bind, List.cons_append, List.nil_append]

theorem scopedRefs_eq : (Finset.univ.filter fun b : Ref sig .tc => b.isScoped) = ∅ := by decide
theorem scopedSems_eq : (Finset.univ.filter fun sm : SemLoc sig => sm.isScoped .tc) = ∅ := by decide

theorem opsThr_sub : (opsThr : List (HloOp τ sig (Elt F))).Forall fun op => op.bufs ⊆ tcRefs τ sig :=
  ⟨unary_bufs_sub .., reshape_bufs_sub .., unary_bufs_sub ..,
    nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., nullary_bufs_sub .., unary_bufs_sub .., ternary_bufs_sub ..⟩

theorem opsRest_sub : (opsRest : List (HloOp τ sig (Elt F))).Forall fun op => op.bufs ⊆ tcRefs τ sig :=
  ⟨nullary_bufs_sub .., unary_bufs_sub .., unary_bufs_sub .., unary_bufs_sub .., unary_bufs_sub .., binary_bufs_sub ..,
    unary_bufs_sub .., binary_bufs_sub .., binary_bufs_sub .., binary_bufs_sub .., nullary_bufs_sub .., binary_bufs_sub ..,
    nullary_bufs_sub .., binary_bufs_sub ..⟩

theorem ops_sub : (ops : List (HloOp τ sig (Elt F))).Forall fun op => op.bufs ⊆ tcRefs τ sig :=
  List.forall_append.mpr ⟨opsThr_sub, opsRest_sub⟩

/-- The fold of a concatenation is the fold of the second line from the fold of the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- At the compiled mesh, for any float values, from any memory with zero counters: every weakly fair execution
    of @main on the TensorCores terminates, and every final state has each TensorCore buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after opsRest (after opsThr (launchContents m c)) (b : DevRef τ sig) :=
  (θ_run defs _ _).mono (fun _ h c b => (h c b).trans (congrFun (after_append opsThr opsRest _) _))
    (run_seq scopedRefs_eq scopedSems_eq defs main (fun _ => ops) main_eq (fun _ => ops_sub) m ρ)

end Cert.ReferenceIdeal.RefRun

end
-- ==== Proof.RefThr.lean ====
/-
  The row-threshold stretch of the reference read back: after its twenty-five operations the buffer `main_v3` holds
  the row thresholds `Cert.MaskedMse.thr` of the two arguments it reads, and the four argument buffers are as they were.
-/
import proofs.«123745_j63926293233938_1_alg».proof.Proof.RefRun
import proofs.«123745_j63926293233938_1_alg».proof.Proof.Spec

noncomputable section

namespace Cert.ReferenceIdeal.RefValue

open Cert.ReferenceIdeal Cert.ReferenceIdeal.RefRun Idealize.ShloMosaic Idealize.ShloMosaic.TcCoe Idealize.SL.Sem Idealize.ShloMosaic.StableHlo

variable [Cert.ReferenceIdeal.Facts]

/-- The shape relations the threshold chain asks for, as this program states them. -/
theorem thrFacts : Cert.MaskedMse.ThrFacts :=
  ⟨Facts₀.slices_S131072x8x16_S131072x1x1_0_0_0, Facts₀.shapeCasts_S131072x1x1_S131072, Facts₀.bcast_S_S131072,
    Facts₀.bcast_S131072_S131072x1_0, Facts₀.bcast_S_S131072x1, Facts₀.bcast_S1_S1x1_1, Facts₀.bcast_S1x1_S131072x1_0_1,
    Facts₀.reducesTo_S131072x1_S131072_d1, Facts₀.h_S_⟩

attribute [local irreducible] Host.reduce Host.gather in
set_option maxRecDepth 8192 in
/-- The fold of the threshold stretch at `main_v3` is the threshold chain of the contents of `main_arg0` and
    `main_arg3`, by computation: each operation's result at its own buffer is its function of the operands' contents,
    and the typed references' transports are the identity at these literal references. The reduction and the gather
    stay folded: the equation never looks inside them. -/
theorem thr_eq (V : Valuation τ sig (Elt Ideal)) :
    after opsThr V (main_v3 : DevRef τ sig)
      = Cert.MaskedMse.thr thrFacts gather_S32_S131072x1_S131072_n_0_n_n_0_1_1 (V (main_arg0 : DevRef τ sig)) (V (main_arg3 : DevRef τ sig)) := by
  after_results_simp
  rfl

theorem thr_arg0 (V : Valuation τ sig (Elt Ideal)) : after opsThr V (main_arg0 : DevRef τ sig) = V (main_arg0 : DevRef τ sig) := by
  after_results_simp
theorem thr_arg1 (V : Valuation τ sig (Elt Ideal)) : after opsThr V (main_arg1 : DevRef τ sig) = V (main_arg1 : DevRef τ sig) := by
  after_results_simp
theorem thr_arg2 (V : Valuation τ sig (Elt Ideal)) : after opsThr V (main_arg2 : DevRef τ sig) = V (main_arg2 : DevRef τ sig) := by
  after_results_simp
theorem thr_arg3 (V : Valuation τ sig (Elt Ideal)) : after opsThr V (main_arg3 : DevRef τ sig) = V (main_arg3 : DevRef τ sig) := by
  after_results_simp

end Cert.ReferenceIdeal.RefValue

end
-- ==== Proof.RefSum.lean ====
/-
  The masked mean stretch of the reference read back at the ideal values: after its seventeen operations the buffer
  `main_v15` holds `Cert.MaskedMse.mse` of the contents of `main_v3` (the row thresholds), `main_arg1` and `main_arg2`.

  The sum over every position of the 131072 × 512 grid from the initial value zero is the double sum over rows and
  features; at position (r, q) the feature iota broadcast down the rows reads q, the thresholds broadcast across the
  features read row r's, and the product of the difference with the comparison bit, squared, is the position's term.
-/
import proofs.«123745_j63926293233938_1_alg».proof.Proof.RefRun
import proofs.«123745_j63926293233938_1_alg».proof.Proof.Spec
import Idealize.ShloMosaic.PureOps.Ideal.Laws

noncomputable section

namespace Cert.ReferenceIdeal.RefValue

open Cert.ReferenceIdeal Cert.ReferenceIdeal.RefRun Idealize.ShloMosaic Idealize.ShloMosaic.TcCoe Idealize.SL.Sem Idealize.ShloMosaic.StableHlo
open Idealize.ShloMosaic.ValueIdx
open scoped BigOperators

variable [Cert.ReferenceIdeal.Facts]

/-- The feature iota, broadcast to one row and then down the rows, reads the feature's number at (r, q). -/
theorem iota_at (r : Fin 131072) (q : Fin 512) :
    broadcastInDim S131072x512 ![0, 1] Facts₀.bcast_S1x512_S131072x512_0_1
        (broadcastInDim S1x512 ![1] Facts₀.bcast_S512_S1x512_1 (iotaInDim S512 32 0)) (ix2 r q)
      = BitVec.ofNat 32 q.val := rfl

/-- The thresholds, broadcast to a column and then across the features, read row r's at (r, q). -/
theorem thr_at (T : S131072.Idx → BitVec 32) (r : Fin 131072) (q : Fin 512) :
    broadcastInDim S131072x512 ![0, 1] Facts₀.bcast_S131072x1_S131072x512_0_1
        (broadcastInDim S131072x1 ![0] Facts₀.bcast_S131072_S131072x1_0 T) (ix2 r q)
      = T (ix1 r) := by
  unfold broadcastInDim
  refine congrArg T (funext fun a => ?_)
  match a with
  | ⟨0, _⟩ => rfl

/-- The masked difference: `(y - y') · float(iota < thresholds)` over the grid. -/
abbrev masked (T : S131072.Idx → BitVec 32) (y y' : FVec Ideal S131072x512 .f32) : FVec Ideal S131072x512 .f32 :=
  mulf (subf y y')
    (uitofp .f32 (cmpi .slt
      (broadcastInDim S131072x512 ![0, 1] Facts₀.bcast_S1x512_S131072x512_0_1
        (broadcastInDim S1x512 ![1] Facts₀.bcast_S512_S1x512_1 (iotaInDim S512 32 0)))
      (broadcastInDim S131072x512 ![0, 1] Facts₀.bcast_S131072x1_S131072x512_0_1
        (broadcastInDim S131072x1 ![0] Facts₀.bcast_S131072_S131072x1_0 T))))

/-- At (r, q) the squared masked difference is the position's term. -/
theorem sq_at (T : S131072.Idx → BitVec 32) (y y' : FVec Ideal S131072x512 .f32) (r : Fin 131072) (q : Fin 512) :
    mulf (masked T y y') (masked T y y') (ix2 r q) = Cert.MaskedMse.term T y y' r q := by
  have hk : (uitofp .f32 (cmpi .slt
      (broadcastInDim S131072x512 ![0, 1] Facts₀.bcast_S1x512_S131072x512_0_1
        (broadcastInDim S1x512 ![1] Facts₀.bcast_S512_S1x512_1 (iotaInDim S512 32 0)))
      (broadcastInDim S131072x512 ![0, 1] Facts₀.bcast_S131072x1_S131072x512_0_1
        (broadcastInDim S131072x1 ![0] Facts₀.bcast_S131072_S131072x1_0 T))) : FVec Ideal S131072x512 .f32) (ix2 r q)
      = Cert.MaskedMse.keep (T (ix1 r)) q.val := by
    show (((IntOp.cmpi .slt _ _).toNat : ℝ) : EReal) = (((IntOp.cmpi .slt _ _).toNat : ℝ) : EReal)
    rw [iota_at, thr_at]
  rw [mulf_apply, masked, mulf_apply, subf_apply, hk]
  rfl

/-- The fold of the masked mean stretch at `main_v15`, from any contents `W`: the mean of the position terms under the
    thresholds `W` has at `main_v3`, of the arrays it has at `main_arg1` and `main_arg2`. -/
theorem rest_eq (W : Valuation τ sig (Elt Ideal)) :
    after opsRest W (main_v15 : DevRef τ sig)
      = Cert.MaskedMse.mse (W (main_v3 : DevRef τ sig)) (W (main_arg1 : DevRef τ sig)) (W (main_arg2 : DevRef τ sig)) := by
  after_results_simp
  funext j
  have hsum : ∑ i : S131072x512.Idx,
        mulf (masked (W (main_v3 : DevRef τ sig)) (W (main_arg1 : DevRef τ sig)) (W (main_arg2 : DevRef τ sig)))
          (masked (W (main_v3 : DevRef τ sig)) (W (main_arg1 : DevRef τ sig)) (W (main_arg2 : DevRef τ sig))) i
      = ∑ r : Fin 131072, ∑ q : Fin 512,
          Cert.MaskedMse.term (W (main_v3 : DevRef τ sig)) (W (main_arg1 : DevRef τ sig)) (W (main_arg2 : DevRef τ sig)) r q := by
    rw [sum_idx2]
    exact Finset.sum_congr rfl fun r _ => Finset.sum_congr rfl fun q _ => sq_at _ _ _ r q
  show Ideal.div (Ideal.hostReduceAdd Facts₀.reducesTo_S131072x512_S_d0_1
      (mulf (masked (W (main_v3 : DevRef τ sig)) (W (main_arg1 : DevRef τ sig)) (W (main_arg2 : DevRef τ sig)))
        (masked (W (main_v3 : DevRef τ sig)) (W (main_arg1 : DevRef τ sig)) (W (main_arg2 : DevRef τ sig))))
      (Ideal.ofBits .f32 0x00000000#32) j) (Ideal.ofBits .f32 0x4C800000#32)
    = Ideal.div (∑ r : Fin 131072, ∑ q : Fin 512,
          Cert.MaskedMse.term (W (main_v3 : DevRef τ sig)) (W (main_arg1 : DevRef τ sig)) (W (main_arg2 : DevRef τ sig)) r q)
        (Ideal.ofBits .f32 0x4C800000#32)
  rw [Ideal.hostReduceAdd_total Facts₀.reducesTo_S131072x512_S_d0_1 (fun b => b.elim0), Ideal.ofBits_zero_f32, zero_add, hsum]

theorem rest_arg0 (W : Valuation τ sig (Elt Ideal)) : after opsRest W (main_arg0 : DevRef τ sig) = W (main_arg0 : DevRef τ sig) := by
  after_results_simp
theorem rest_arg1 (W : Valuation τ sig (Elt Ideal)) : after opsRest W (main_arg1 : DevRef τ sig) = W (main_arg1 : DevRef τ sig) := by
  after_results_simp
theorem rest_arg2 (W : Valuation τ sig (Elt Ideal)) : after opsRest W (main_arg2 : DevRef τ sig) = W (main_arg2 : DevRef τ sig) := by
  after_results_simp
theorem rest_arg3 (W : Valuation τ sig (Elt Ideal)) : after opsRest W (main_arg3 : DevRef τ sig) = W (main_arg3 : DevRef τ sig) := by
  after_results_simp

end Cert.ReferenceIdeal.RefValue

end
-- ==== Proof.RefValue.lean ====
/-
  The reference program's value: every weakly fair execution of @main at the ideal values terminates with the result
  buffer `main_v15` at the masked mean squared error `Cert.MaskedMse.mse` of the launch contents of the four
  arguments — the row thresholds `Cert.MaskedMse.thr` of `main_arg0` and `main_arg3`, the arrays of `main_arg1` and
  `main_arg2` — and the four argument buffers unchanged. The run is the straight line's; the threshold stretch and the
  masked mean stretch are read back one after the other.
-/
import proofs.«123745_j63926293233938_1_alg».proof.Proof.RefThr
import proofs.«123745_j63926293233938_1_alg».proof.Proof.RefSum

noncomputable section

namespace Cert.ReferenceIdeal.RefValue

open Cert.ReferenceIdeal Cert.ReferenceIdeal.RefRun Idealize.ShloMosaic Idealize.ShloMosaic.TcCoe Idealize.SL.Sem Idealize.ShloMosaic.StableHlo

variable [Cert.ReferenceIdeal.Facts]

/-- The whole line's fold at the result buffer, from any contents. -/
theorem value_eq (V : Valuation τ sig (Elt Ideal)) :
    after opsRest (after opsThr V) (main_v15 : DevRef τ sig)
      = Cert.MaskedMse.mse
          (Cert.MaskedMse.thr thrFacts gather_S32_S131072x1_S131072_n_0_n_n_0_1_1 (V (main_arg0 : DevRef τ sig)) (V (main_arg3 : DevRef τ sig)))
          (V (main_arg1 : DevRef τ sig)) (V (main_arg2 : DevRef τ sig)) := by
  rw [rest_eq, thr_eq, thr_arg1, thr_arg2]

theorem arg0_eq (V : Valuation τ sig (Elt Ideal)) :
    after opsRest (after opsThr V) (main_arg0 : DevRef τ sig) = V (main_arg0 : DevRef τ sig) := by rw [rest_arg0, thr_arg0]
theorem arg1_eq (V : Valuation τ sig (Elt Ideal)) :
    after opsRest (after opsThr V) (main_arg1 : DevRef τ sig) = V (main_arg1 : DevRef τ sig) := by rw [rest_arg1, thr_arg1]
theorem arg2_eq (V : Valuation τ sig (Elt Ideal)) :
    after opsRest (after opsThr V) (main_arg2 : DevRef τ sig) = V (main_arg2 : DevRef τ sig) := by rw [rest_arg2, thr_arg2]
theorem arg3_eq (V : Valuation τ sig (Elt Ideal)) :
    after opsRest (after opsThr V) (main_arg3 : DevRef τ sig) = V (main_arg3 : DevRef τ sig) := by rw [rest_arg3, thr_arg3]

/-- On the device, at the ideal values, from any memory with zero counters: every weakly fair execution of @main
    terminates with the result at the masked mean squared error of the arguments' launch contents and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v15)
        = Cert.MaskedMse.mse (Cert.MaskedMse.thr thrFacts gather_S32_S131072x1_S131072_n_0_n_n_0_1_1 (m ((c.tc : Thread nD τ).loc main_arg0)) (m ((c.tc : Thread nD τ).loc main_arg3)))
            (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c main_v15).trans (value_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_main m ρ)

end Cert.ReferenceIdeal.RefValue

end
-- ==== Proof.lean ====
/-
  The certificate of the masked mean squared error kernel against its jnp reference.

  Both programs compute, over the extended reals, the mean over all 131072 × 512 positions of ((y − y')·keep)², where
  position (r, q) is kept when q is below row r's threshold and the thresholds are one shared chain of host operations
  on x and n_valid (never opened here). The reference sums all positions at once and divides by 2²⁶. The kernel walks 64
  row tiles of 2048 rows, adds each tile's sum into a one-word accumulator that starts from zero, and divides by 2²⁶
  after the last tile; the host then reads the word out as a scalar. The two totals are the same sum regrouped by
  tiles — associativity and commutativity of the addition of extended reals only, so the finiteness of the inputs is
  never used — and the two divisions are the same operation by the same constant.

  The three frames: the kernel's two are its generated frame runs; the reference's is its run with the result dropped.
  The idealization rewrote nothing, so `preserves` is `True`.
-/
import proofs.«123745_j63926293233938_1_alg».proof.Defs
import proofs.«123745_j63926293233938_1_alg».proof.Proof.Gen.Kernel
import proofs.«123745_j63926293233938_1_alg».proof.Proof.Gen.Kernel.Skeleton
import proofs.«123745_j63926293233938_1_alg».proof.Proof.Gen.Kernel.Launch
import proofs.«123745_j63926293233938_1_alg».proof.Proof.Gen.Kernel.Points
import proofs.«123745_j63926293233938_1_alg».proof.Proof.Gen.Kernel.Frame
import proofs.«123745_j63926293233938_1_alg».proof.Proof.Gen.KernelIdeal
import proofs.«123745_j63926293233938_1_alg».proof.Proof.Gen.KernelIdeal.Skeleton
import proofs.«123745_j63926293233938_1_alg».proof.Proof.Gen.KernelIdeal.Launch
import proofs.«123745_j63926293233938_1_alg».proof.Proof.Gen.KernelIdeal.Points
import proofs.«123745_j63926293233938_1_alg».proof.Proof.Gen.KernelIdeal.Frame
import proofs.«123745_j63926293233938_1_alg».proof.Proof.Gen.ReferenceIdeal
import proofs.«123745_j63926293233938_1_alg».proof.Proof.Gen.Pre_finite_inputs
import proofs.«123745_j63926293233938_1_alg».proof.Proof.KValue
import proofs.«123745_j63926293233938_1_alg».proof.Proof.RefValue
import Idealize.ShloMosaic.Adequacy
import Idealize.ShloMosaic.Init

noncomputable section

namespace Cert.Proof

open Idealize.ShloMosaic Idealize.SL.Sem Cert.MaskedMse

/-- The masked mean squared error depends only on the four argument arrays: equal arguments, equal values (the
    threshold chain's shape relations are propositions, and the two programs' gather records are one record). -/
theorem mse_congr {x x' : SX.Idx → EReal} {nv nv' : SN.Idx → BitVec 32} {y y' z z' : SY.Idx → EReal}
    (hx : x' = x) (hy : y' = y) (hz : z' = z) (hn : nv' = nv) (h h' : ThrFacts) (gd gd' : GatherDims SN SC SR) (hgd : gd' = gd) :
    mse (thr h' gd' x' nv') y' z' = mse (thr h gd x nv) y z := by
  subst hx hy hz hn hgd; rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both runs end at the masked mean squared error of arguments that agree. -/
theorem algebraic : Cert.algebraic_KernelIdeal_ReferenceIdeal := fun m ρ m' ρ' _ hagree =>
  ⟨fun c => mse (Cert.KernelIdeal.KValue.T m c)
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ,
    (θ_run Cert.ReferenceIdeal.defs _ _).mono (fun _ h c =>
      ⟨(h c).1.trans (mse_congr (hagree c).1 (hagree c).2.1 (hagree c).2.2.1 (hagree c).2.2.2 _ _ _ _ rfl), (h c).2⟩)
      (Cert.ReferenceIdeal.RefValue.run m' ρ')⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
